-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x64 : Shape := ⟨3, ![512, 2048, 64]⟩
abbrev S_ : Shape := ⟨0, ![]⟩

class Facts : Prop where
  bcast_S_S512x2048x64 : S_.BroadcastsInDim S512x2048x64 (![] : Fin 0 → Fin S512x2048x64.rank)
  reducesTo_S512x2048x64_S_d0_1_2 : S512x2048x64.ReducesTo [0, 1, 2] S_
  h_S_ : 0 < S_.numel

variable [Facts]

def fn {F : FTy → Type} [FloatOps F] (main_arg0 : FVec F S512x2048x64 .f32) (main_arg1 : FVec F S512x2048x64 .f32) : IVec S_ 1 :=
  let main_v0 : FVec F S512x2048x64 .f32 := Host.absf main_arg0
  let main_cst : FVec F S_ .f32 := constant S_ .f32 0x7F800000#32
  let main_v1 : FVec F S512x2048x64 .f32 := broadcastInDim S512x2048x64 ![] bcast_S_S512x2048x64 main_cst
  let main_v2 : IVec S512x2048x64 1 := cmpf .olt main_v0 main_v1
  let main_c : IVec S_ 1 := constantI S_ 1 1#1
  let main_v3 : IVec S_ 1 := (fun x v => Host.reduce IntOp.andi x v reducesTo_S512x2048x64_S_d0_1_2 h_S_) main_v2 main_c
  let main_v4 : FVec F S512x2048x64 .f32 := Host.absf main_arg1
  let main_cst_0 : FVec F S_ .f32 := constant S_ .f32 0x7F800000#32
  let main_v5 : FVec F S512x2048x64 .f32 := broadcastInDim S512x2048x64 ![] bcast_S_S512x2048x64 main_cst_0
  let main_v6 : IVec S512x2048x64 1 := cmpf .olt main_v4 main_v5
  let main_c_1 : IVec S_ 1 := constantI S_ 1 1#1
  let main_v7 : IVec S_ 1 := (fun x v => Host.reduce IntOp.andi x v reducesTo_S512x2048x64_S_d0_1_2 h_S_) main_v6 main_c_1
  let main_v8 : IVec S_ 1 := andi main_v3 main_v7
  main_v8
-- ==== Kernel.lean ====
abbrev S512x2048x64 : Shape := ⟨3, ![512, 2048, 64]⟩
abbrev S512x2048 : Shape := ⟨2, ![512, 2048]⟩
abbrev S512x1 : Shape := ⟨2, ![512, 1]⟩
abbrev S128x128x64 : Shape := ⟨3, ![128, 128, 64]⟩
abbrev S128x128 : Shape := ⟨2, ![128, 128]⟩
abbrev S128x1 : Shape := ⟨2, ![128, 1]⟩
abbrev S128x128x1 : Shape := ⟨3, ![128, 128, 1]⟩
abbrev S128 : Shape := ⟨1, ![128]⟩
abbrev S512 : Shape := ⟨1, ![512]⟩
abbrev S_ : Shape := ⟨0, ![]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 53
  | .vmem => 9
  | .smem => 0
  | _ => 0

abbrev bufTy : (tb : Table) → Fin (tcTables nBuf tb) → BufTy
  | .hbm, ⟨0, _⟩ => ⟨S512x2048x64, .f32⟩
  | .hbm, ⟨1, _⟩ => ⟨S512x2048x64, .f32⟩
  | .hbm, ⟨2, _⟩ => ⟨S512x2048, .f32⟩
  | .hbm, ⟨3, _⟩ => ⟨S512x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S512x1x1, .i32⟩
  | .hbm, ⟨30, _⟩ => ⟨S1, .i32⟩
  | .hbm, ⟨31, _⟩ => ⟨S_, .i32⟩
  | .hbm, ⟨32, _⟩ => ⟨S512x1x1, .i32⟩
  | .hbm, ⟨33, _⟩ => ⟨S512x1x1, .i1⟩
  | .hbm, ⟨34, _⟩ => ⟨S1x1x1, .i32⟩
  | .hbm, ⟨35, _⟩ => ⟨S512x1x1, .i32⟩
  | .hbm, ⟨36, _⟩ => ⟨S512x1x1, .i1⟩
  | .hbm, ⟨37, _⟩ => ⟨S512x1x1, .i1⟩
  | .hbm, ⟨38, _⟩ => ⟨S_, .i1⟩
  | .hbm, ⟨39, _⟩ => ⟨S512x1, .i1⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S128x128x64, .f32⟩
  | .local _ .vmem, ⟨1, _⟩ => ⟨S128x128x64, .f32⟩
  | .local _ .vmem, ⟨2, _⟩ => ⟨S128x128x64, .f32⟩
  | .local _ .vmem, ⟨3, _⟩ => ⟨S128x128x64, .f32⟩
  | .local _ .vmem, ⟨4, _⟩ => ⟨S128x128, .f32⟩
  | .local _ .vmem, ⟨5, _⟩ => ⟨S128x128, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | _, _ => ⟨S512x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_13 : BitVec 32 := 0#32
  let v27 : BitVec 1 := Scalar.cmpi .ne v26 c0_i32_13
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128x64_S128x128x64_0_0_0 : ∀ a, (![0, 0, 0] : Fin 3 → Nat) a + S128x128x64.size a ≤ S128x128x64.size a
  h_S128x128x64 : 0 < S128x128x64.numel
  slices_S128x128x64_o0_0_0_S128x128x1 : S128x128x64.Slices ![0, 0, 0] S128x128x1
  shapeCasts_S128x128x1_S128x128 : S128x128x1.ShapeCasts S128x128
  inb_S128x128_S128x128_0_0 : ∀ a, (![0, 0] : Fin 2 → Nat) a + S128x128.size a ≤ S128x128.size a
  h_S128x128 : 0 < S128x128.numel
  slices_S128x128x64_o0_0_1_S128x128x1 : S128x128x64.Slices ![0, 0, 1] S128x128x1
  natLt_1_32 : 1 < 32
  reduces_S128x128_S128 : S128x128.Reduces [1] S128
  shapeCasts_S128_S128x1 : S128.ShapeCasts S128x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  h_S_ : 0 < S_.numel
  reducesTo_S512_S_d0 : S512.ReducesTo [0] S_
  gather_S512x2048_S512x1x1_S512x1_n_1_0_0_1_2_11_wf : GatherDims.WF S512x2048 S512x1x1 S512x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S512x2048x64.size a
  hwx0_0 : ∀ i : grid0.Coords, EltTy.bits .f32 = 32 ∨ (Rect.block (s := S512x2048x64) S128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x64.size a ≤ S512x2048x64.size a
  hwx0_1 : ∀ i : grid0.Coords, EltTy.bits .f32 = 32 ∨ (Rect.block (s := S512x2048x64) S128x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x2048.size a
  hwx0_2 : ∀ i : grid0.Coords, EltTy.bits .f32 = 32 ∨ (Rect.block (s := S512x2048) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S512x1.size a
  hwx0_3 : ∀ i : grid0.Coords, EltTy.bits .f32 = 32 ∨ (Rect.block (s := S512x1) S128x1.size (cc0_transform_3 i) (hinb0_3 i)).WholeWords (EltTy.packing .f32)

variable [Facts₀]

def gather_S512x2048_S512x1x1_S512x1_n_1_0_0_1_2_11 : GatherDims S512x2048 S512x1x1 S512x1 where
  offsetDims := []
  collapsedSliceDims := [1]
  operandBatchingDims := [0]
  startIndicesBatchingDims := [0]
  startIndexMap := [1]
  indexVectorDim := 2
  sliceSizes := ![1, 1]
  wf := gather_S512x2048_S512x1x1_S512x1_n_1_0_0_1_2_11_wf

abbrev win0_0 : Pipeline.Window sig grid0 :=
  Pipeline.Window.ofSpec (Memref.whole main_arg0) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x2048x64 : Shape := ⟨3, ![512, 2048, 64]⟩
abbrev S512x2048x1 : Shape := ⟨3, ![512, 2048, 1]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S512x2048x64, .f32⟩
  | .hbm, ⟨1, _⟩ => ⟨S512x2048x64, .f32⟩
  | .hbm, ⟨2, _⟩ => ⟨S512x2048x1, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .i1⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512x2048x1, .f32⟩
  | .hbm, ⟨27, _⟩ => ⟨S512x2048, .f32⟩
  | .hbm, ⟨28, _⟩ => ⟨S512x2048x1, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S_, .i32⟩
  | .hbm, ⟨37, _⟩ => ⟨S512x1, .i32⟩
  | .hbm, ⟨38, _⟩ => ⟨S512x1, .i32⟩
  | .hbm, ⟨39, _⟩ => ⟨S512x1, .i32⟩
  | .hbm, ⟨40, _⟩ => ⟨S512x1x1, .i32⟩
  | .hbm, ⟨41, _⟩ => ⟨S1, .i32⟩
  | .hbm, ⟨42, _⟩ => ⟨S_, .i32⟩
  | .hbm, ⟨43, _⟩ => ⟨S512x1x1, .i32⟩
  | .hbm, ⟨44, _⟩ => ⟨S512x1x1, .i1⟩
  | .hbm, ⟨45, _⟩ => ⟨S1x1x1, .i32⟩
  | .hbm, ⟨46, _⟩ => ⟨S512x1x1, .i32⟩
  | .hbm, ⟨47, _⟩ => ⟨S512x1x1, .i1⟩
  | .hbm, ⟨48, _⟩ => ⟨S512x1x1, .i1⟩
  | .hbm, ⟨49, _⟩ => ⟨S_, .i1⟩
  | .hbm, ⟨50, _⟩ => ⟨S512x1, .i1⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S512x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩

abbrev nD : Nat := 1
abbrev τ : Topo := Topo.v7x

variable {F : FTy → Type} [FloatOps F]

class Facts₀ : Prop where
  slices_S512x2048x64_S512x2048x1_0_0_1 : S512x2048x64.Slices ![0, 0, 1] S512x2048x1
  shapeCasts_S512x2048x1_S512x2048 : S512x2048x1.ShapeCasts S512x2048
  bcast_S_S512x2048 : S_.BroadcastsInDim S512x2048 (![] : Fin 0 → Fin S512x2048.rank)
  reducesTo_S512x2048_S512_d1 : S512x2048.ReducesTo [1] S512
  h_S_ : 0 < S_.numel
  bcast_S_S512 : S_.BroadcastsInDim S512 (![] : Fin 0 → Fin S512.rank)
  slices_S512x2048x64_S512x2048x1_0_0_0 : S512x2048x64.Slices ![0, 0, 0] S512x2048x1
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  gather_S512x2048_S512x1x1_S512x1_n_1_0_0_1_2_11_wf : GatherDims.WF S512x2048 S512x1x1 S512x1 [] [1] [0] [1] [0] 2 ![1, 1]

variable [Facts₀]

def gather_S512x2048_S512x1x1_S512x1_n_1_0_0_1_2_11 : GatherDims S512x2048 S512x1x1 S512x1 where
  offsetDims := []
  collapsedSliceDims := [1]
  operandBatchingDims := [0]
  startIndicesBatchingDims := [0]
  startIndexMap := [1]
  indexVectorDim := 2
  sliceSizes := ![1, 1]
  wf := gather_S512x2048_S512x1x1_S512x1_n_1_0_0_1_2_11_wf

class Facts : Prop extends Facts₀ where

variable [Facts]
-- ==== Proof.TailDef.lean ====
import proofs.«163855_j46995532153317_2_alg».proof.Proof.RefRead

/-!
What both programs do with the per-row counts `t` (512 numbers) and the squared differences `L` (`512 × 2048`):
the weight `1 + 0.7 · (t / 2047) ^ 2.5`, the column `⌊t⌋ - 1` (wrapped by `2048` when negative, and out of range
giving a not-a-number fill), the entry of `L` in that column of each row, the product with the weight and with `64`,
and the mean over the 512 rows. It is named once, as one function `tail t L`, and never opened: the two programs
agree because they hand it equal `t` and `L`.
-/

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The weight of a row from its count: `1 + 0.7 · (t / 2047) ^ 2.5`. -/
def weight (t : (⟨S512, .f32⟩ : BufTy).Contents (Elt F)) : (⟨S512, .f32⟩ : BufTy).Contents (Elt F) :=
  addf (broadcastInDim S512 ![] bcast_S_S512 (constant S_ .f32 0x3F800000#32))
    (mulf (broadcastInDim S512 ![] bcast_S_S512 (constant S_ .f32 0x3F333333#32))
      (Host.powf (Host.divf t (broadcastInDim S512 ![] bcast_S_S512 (constant S_ .f32 0x44FFE000#32)))
        (broadcastInDim S512 ![] bcast_S_S512 (constant S_ .f32 0x40200000#32))))

/-- The column to read in each row: the count as an integer, less one, as a one-column array. -/
def lastIdx (t : (⟨S512, .f32⟩ : BufTy).Contents (Elt F)) : (⟨S512x1, .i32⟩ : BufTy).Contents (Elt F) :=
  broadcastInDim S512x1 ![0] bcast_S512_S512x1_0
    (subi (fptosi 32 t) (broadcastInDim S512 ![] bcast_S_S512 (constantI S_ 32 1#32)))

/-- A negative column counts from the end: `2048` is added to it. -/
def wrapIdx (ix : (⟨S512x1, .i32⟩ : BufTy).Contents (Elt F)) : (⟨S512x1x1, .i32⟩ : BufTy).Contents (Elt F) :=
  shapeCast S512x1x1
    (select (cmpi .slt ix (broadcastInDim S512x1 ![] bcast_S_S512x1 (constantI S_ 32 0#32)))
      (addi ix (broadcastInDim S512x1 ![] bcast_S_S512x1 (constantI S_ 32 2048#32))) ix)
    shapeCasts_S512x1_S512x1x1

/-- Whether the wrapped column lies in `[0, 2047]`. -/
def inRange (w : (⟨S512x1x1, .i32⟩ : BufTy).Contents (Elt F)) : (⟨S512x1, .i1⟩ : BufTy).Contents (Elt F) :=
  Host.reduce IntOp.andi
    (andi (cmpi .sge w (broadcastInDim S512x1x1 ![] bcast_S_S512x1x1 (constantI S_ 32 0#32)))
      (cmpi .sle w (broadcastInDim S512x1x1 ![0, 1, 2] bcast_S1x1x1_S512x1x1_0_1_2
        (broadcastInDim S1x1x1 ![2] bcast_S1_S1x1x1_2 (constantI S1 32 2047#32)))))
    (constantI S_ 1 1#1) reducesTo_S512x1x1_S512x1_d2 h_S_

/-- The entry of each row of `L` in the row's column (the fill where the column is out of range). -/
def takeLast (L : (⟨S512x2048, .f32⟩ : BufTy).Contents (Elt F)) (ix : (⟨S512x1, .i32⟩ : BufTy).Contents (Elt F)) :
    (⟨S512x1, .f32⟩ : BufTy).Contents (Elt F) :=
  select (inRange (F := F) (wrapIdx (F := F) ix))
    (Host.gather gather_S512x2048_S512x1x1_S512x1_n_1_0_0_1_2_11 L (wrapIdx (F := F) ix))
    (broadcastInDim S512x1 ![] bcast_S_S512x1 (constant S_ .f32 0x7FC00000#32))

/-- The weighted mean both programs return, from the counts `t` and the squared differences `L`. -/
def tail (t : (⟨S512, .f32⟩ : BufTy).Contents (Elt F)) (L : (⟨S512x2048, .f32⟩ : BufTy).Contents (Elt F)) :
    (⟨S_, .f32⟩ : BufTy).Contents (Elt F) :=
  Host.divf
    (Host.reduceAdd
      (mulf (mulf (shapeCast S512 (takeLast L (lastIdx t)) shapeCasts_S512x1_S512) (weight t))
        (broadcastInDim S512 ![] bcast_S_S512 (constant S_ .f32 0x42800000#32)))
      (constant S_ .f32 0x00000000#32) reducesTo_S512_S_d0 h_S_)
    (constant S_ .f32 0x44000000#32)

open Cert.ReferenceIdeal.ReadP in
/-- The reference's result is `tail` of its count stage and its squared-difference stage. -/
theorem val_main_v30_eq_tail (x0 x1 : (⟨S512x2048x64, .f32⟩ : BufTy).Contents (Elt F)) :
    val_main_v30 (F := F) x0 x1 = tail (val_main_v5 (F := F) x1) (val_main_v22 (F := F) x0 x1) := rfl

end Cert.ReferenceIdeal.RefValue

end
-- ==== Proof.Spec.lean ====
import Idealize.ShloMosaic.PureOps.Ideal
import Idealize.ShloMosaic.Lib.ValueIdx

/-!
The two quantities both programs compute from `pred` and `targ` (each `512 × 2048 × 64`), stated on the
extended reals over natural-number coordinates:

* `count targ b` — how many of the 2048 entries `targ[b, h, 1]` differ from zero;
* `sqAt pred targ b h` — `(pred[b, h, 0] - targ[b, h, 0])²`.

A sum over `2048` entries taken in 16 runs of 128 is the same sum (`Finset.sum_range_add`): addition of extended
reals is associative and commutative, and nothing else is used.
-/

noncomputable section

namespace Cert.Spec

open Idealize.ShloMosaic Idealize.ShloMosaic.ValueIdx

/-- The shape of both inputs. -/
abbrev A3 : Shape := ⟨3, ![512, 2048, 64]⟩
/-- The shape of the squared differences. -/
abbrev A2 : Shape := ⟨2, ![512, 2048]⟩
/-- The shape of the counts as the kernel's region writes them (one column). -/
abbrev A21 : Shape := ⟨2, ![512, 1]⟩
/-- The shape of the counts as a vector. -/
abbrev A1 : Shape := ⟨1, ![512]⟩

/-- `1` where `x` differs from zero, `0` where it is zero: the comparison's bit read as a number. -/
def nz (x : EReal) : EReal :=
  (((Ideal.cmp .une x (Ideal.ofBits .f32 0x00000000#32)).toNat : ℝ) : EReal)

/-- `nz` of `targ[row, n, 1]`, for natural coordinates (zero outside the array). -/
def nzAt (T : A3.Idx → EReal) (row n : ℕ) : EReal :=
  if h : row < 512 ∧ n < 2048 then nz (T (ix3 (⟨row, h.1⟩ : Fin 512) (⟨n, h.2⟩ : Fin 2048) (1 : Fin 64))) else 0

/-- `(pred[row, n, 0] - targ[row, n, 0])²`, for natural coordinates (zero outside the array). -/
def sqAt (P T : A3.Idx → EReal) (row n : ℕ) : EReal :=
  if h : row < 512 ∧ n < 2048 then
    (P (ix3 (⟨row, h.1⟩ : Fin 512) (⟨n, h.2⟩ : Fin 2048) (0 : Fin 64)) - T (ix3 (⟨row, h.1⟩ : Fin 512) (⟨n, h.2⟩ : Fin 2048) (0 : Fin 64)))
      * (P (ix3 (⟨row, h.1⟩ : Fin 512) (⟨n, h.2⟩ : Fin 2048) (0 : Fin 64)) - T (ix3 (⟨row, h.1⟩ : Fin 512) (⟨n, h.2⟩ : Fin 2048) (0 : Fin 64)))
  else 0

/-- The number of nonzero entries among the first `k` of row `row`'s channel 1. -/
def countUpTo (T : A3.Idx → EReal) (row k : ℕ) : EReal := ∑ n ∈ Finset.range k, nzAt T row n

/-- The number of nonzero entries of row `row`'s channel 1. -/
def count (T : A3.Idx → EReal) (row : ℕ) : EReal := countUpTo T row 2048

/-- The squared differences as an array. -/
def lossArr (P T : A3.Idx → EReal) : A2.Idx → EReal := fun i => sqAt P T (i 0).val (i 1).val
/-- The counts as a one-column array. -/
def countCol (T : A3.Idx → EReal) : A21.Idx → EReal := fun i => count T (i 0).val
/-- The counts as a vector. -/
def countVec (T : A3.Idx → EReal) : A1.Idx → EReal := fun i => count T (i 0).val

/-- Counting 128 more entries: the count so far plus the run's own count. -/
theorem countUpTo_add (T : A3.Idx → EReal) (row k : ℕ) :
    countUpTo T row (k + 128) = countUpTo T row k + ∑ q ∈ Finset.range 128, nzAt T row (k + q) :=
  Finset.sum_range_add _ _ _

/-- Inside the array `nzAt` is `nz` of the entry. -/
theorem nzAt_of_lt (T : A3.Idx → EReal) (b : Fin 512) (h : Fin 2048) :
    nzAt T b.val h.val = nz (T (ix3 b h (1 : Fin 64))) := by
  unfold nzAt
  rw [dif_pos ⟨b.isLt, h.isLt⟩]

/-- Inside the array `sqAt` is the squared difference of the two entries. -/
theorem sqAt_of_lt (P T : A3.Idx → EReal) (b : Fin 512) (h : Fin 2048) :
    sqAt P T b.val h.val = (P (ix3 b h (0 : Fin 64)) - T (ix3 b h (0 : Fin 64))) * (P (ix3 b h (0 : Fin 64)) - T (ix3 b h (0 : Fin 64))) := by
  unfold sqAt
  rw [dif_pos ⟨b.isLt, h.isLt⟩]

/-- The count of a row is the sum of `nz` over its 2048 entries. -/
theorem count_eq_sum (T : A3.Idx → EReal) (b : Fin 512) :
    count T b.val = ∑ h : Fin 2048, nz (T (ix3 b h (1 : Fin 64))) := by
  unfold count countUpTo
  rw [← Fin.sum_univ_eq_sum_range (fun n => nzAt T b.val n) 2048]
  exact Finset.sum_congr rfl fun h _ => nzAt_of_lt T b h

/-- A one-bit word widened to 32 bits and read signed is the bit read unsigned. -/
theorem toInt_setWidth_bit (b : BitVec 1) : ((b.setWidth 32).toInt : ℝ) = (b.toNat : ℝ) := by
  rcases BitVec.eq_zero_or_eq_one b with h | h <;> subst h <;> simp

end Cert.Spec

end
-- ==== Proof.RefStages.lean ====
import proofs.«163855_j46995532153317_2_alg».proof.Proof.RefRead
import proofs.«163855_j46995532153317_2_alg».proof.Proof.Spec

/-!
The reference's two intermediate arrays, read at an index on the extended reals: its per-row sum of the "differs from
zero" bits of channel 1 is `Cert.Spec.countVec`, and its squared difference of channel 0 is `Cert.Spec.lossArr`.
-/

noncomputable section

namespace Cert.ReferenceIdeal.RefStages

open Cert.ReferenceIdeal Cert.ReferenceIdeal.Gen Cert.ReferenceIdeal.ReadP
open Idealize.ShloMosaic Idealize.ShloMosaic.TcCoe Idealize.SL.Sem Idealize.ShloMosaic.ValueIdx

/-- The reduction's index `(b, k)`, carried back through the reshape and the slice, is channel 1 of `(b, k)`:
    the reshape keeps the row-major position `b * 2048 + k`, and the slice shifts the last coordinate by one. -/
theorem idx_chan1 (b : Fin 512) (k : Fin 2048) :
    idx_main_v0 (idx_main_v1 (idx_main_v5 (ix1 b) k)) = ix3 b k (1 : Fin 64) :=
  funext fun a => Fin.ext (by
    match a with
    | ⟨0, _⟩ => show (b.val * 2048 + k.val) / 2048 = b.val; omega
    | ⟨1, _⟩ => show (b.val * 2048 + k.val) / 1 % 2048 = k.val; omega
    | ⟨2, _⟩ => rfl)

/-- The index `(b, h)`, carried back through the reshape and the slice of the first operand, is channel 0 of `(b, h)`. -/
theorem idx_chan0_pred (b : Fin 512) (h : Fin 2048) :
    idx_main_v17 (idx_main_v18 (ix2 b h)) = ix3 b h (0 : Fin 64) :=
  funext fun a => Fin.ext (by
    match a with
    | ⟨0, _⟩ => show (b.val * 2048 + h.val) / 2048 = b.val; omega
    | ⟨1, _⟩ => show (b.val * 2048 + h.val) / 1 % 2048 = h.val; omega
    | ⟨2, _⟩ => rfl)

/-- The index `(b, h)`, carried back through the reshape and the slice of the second operand, is channel 0 of `(b, h)`. -/
theorem idx_chan0_targ (b : Fin 512) (h : Fin 2048) :
    idx_main_v19 (idx_main_v20 (ix2 b h)) = ix3 b h (0 : Fin 64) :=
  funext fun a => Fin.ext (by
    match a with
    | ⟨0, _⟩ => show (b.val * 2048 + h.val) / 2048 = b.val; omega
    | ⟨1, _⟩ => show (b.val * 2048 + h.val) / 1 % 2048 = h.val; omega
    | ⟨2, _⟩ => rfl)

/-- The reference's count stage is the count of nonzero channel-1 entries, row by row. -/
theorem count_stage (x1 : (⟨S512x2048x64, .f32⟩ : BufTy).Contents (Elt Ideal)) :
    val_main_v5 (F := Ideal) x1 = Cert.Spec.countVec x1 := by
  funext i
  obtain ⟨b, rfl⟩ : ∃ b : Fin 512, i = ix1 b := ⟨i 0, eq_ix1 i⟩
  -- the reduction is its initial value plus the sum over the 2048 columns; the initial value is the zero word
  rw [val_main_v5_apply]
  have hz : val_main_cst_0 (F := Ideal) (Shape.Idx.first h_S_) = 0 := Ideal.ofBits_zero_f32
  rw [hz, zero_add]
  show _ = Cert.Spec.count x1 b.val
  rw [Cert.Spec.count_eq_sum]
  -- each summand: the comparison of channel 1 at `(b, k)` with the broadcast zero, its bit read as a number
  refine Finset.sum_congr rfl fun k _ => ?_
  rw [val_main_v4_apply, val_main_v3_apply, val_main_v1_apply, val_main_v0_apply, val_main_v2_apply, val_main_cst_apply,
    idx_chan1]
  rfl

/-- The reference's squared-difference stage is `(pred − targ)²` of channel 0, entry by entry. -/
theorem loss_stage (x0 x1 : (⟨S512x2048x64, .f32⟩ : BufTy).Contents (Elt Ideal)) :
    val_main_v22 (F := Ideal) x0 x1 = Cert.Spec.lossArr x0 x1 := by
  funext i
  obtain ⟨b, h, rfl⟩ : ∃ (b : Fin 512) (h : Fin 2048), i = ix2 b h := ⟨i 0, i 1, eq_ix2 i⟩
  -- both operands of the subtraction are channel 0 at `(b, h)`; the product is of the difference with itself
  rw [val_main_v22_apply, val_main_v21_apply, val_main_v18_apply, val_main_v17_apply, val_main_v20_apply, val_main_v19_apply,
    idx_chan0_pred, idx_chan0_targ]
  show _ = Cert.Spec.sqAt x0 x1 b.val h.val
  rw [Cert.Spec.sqAt_of_lt]
  rfl

end Cert.ReferenceIdeal.RefStages

end
-- ==== Proof.Pieces.lean ====
import proofs.«163855_j46995532153317_2_alg».proof.Proof.Gen.KernelIdeal.Frame
import Idealize.ShloMosaic.Lib.Pipeline.Value
import Idealize.ShloMosaic.Lib.Tactic

/-!
What one run of the kernel body leaves behind, as values of what it loaded.

The body zeroes the scratch column at the first of a row block's 16 steps, stores `(pred − targ)²` of channel 0 into
the first output's block, adds the block's per-row count of nonzero channel-1 entries to the scratch column, and at
the last of the 16 steps copies the scratch column to the second output's block. So, with `x0`, `x1` the two input
blocks and `xs0` the scratch column as the step found it:

* the first output's block ends at `k0_pay2 x0 x1` in every case;
* the scratch column ends at `k0_pay3 x1 xs0`, and at `k0_pay3 x1 k0_pay1` (from zero) at a first step;
* at a last step the second output's block ends at the same `k0_pay3 x1 xs0`.

Each is the one covering store's payload: a load through the whole buffer of what the buffer holds is what it holds, and a
load of what a whole-buffer store just left is that store's payload.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first step: the scratch column ends at the block's counts added to zero. -/
theorem sout_A (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : cond0_0 i) (hc1 : ¬cond0_1 i)
    (x0 x1 : Vec F S128x128x64 .f32) :
    sout0_A_0 c i a2 h2 a3 h3 a4 h4 a5 h5 a6 h6 hc0 hc1 x0 x1 = k0_pay3 x1 k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S128x1) hz2, View.readCov_unit_zero (S := S128x1) _ hz2]
  simp only [View.readAt_eq_ld, h3.read_unread, View.ld_unit_zero (S := S128x128x64) hz3]

/-- A middle step: the scratch column ends at the block's counts added to what it held. -/
theorem sout_B (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : ¬cond0_0 i) (hc1 : ¬cond0_1 i)
    (x0 x1 : Vec F S128x128x64 .f32) (xs0 : Vec F S128x1 .f32) :
    sout0_B_0 c i a2 h2 a3 h3 a4 h4 a5 h5 a6 h6 hc0 hc1 x0 x1 xs0 = k0_pay3 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  rw [View.canon_unit_zero hz2]
  simp only [View.readAt_eq_ld, h3.read_unread, h6.read_unread, View.ld_unit_zero (S := S128x128x64) hz3, View.ld_unit_zero (S := S128x1) hz2]

/-- A last step: the scratch column likewise. -/
theorem sout_C (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i)
    (x0 x1 : Vec F S128x128x64 .f32) (xs0 : Vec F S128x1 .f32) :
    sout0_C_0 c i a2 h2 a3 h3 a4 h4 a5 h5 a6 h6 hc0 hc1 x0 x1 xs0 = k0_pay3 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h3.read_unread, h6.read_unread, View.ld_unit_zero (S := S128x128x64) hz3, View.ld_unit_zero (S := S128x1) hz2]

/-- A last step: the second output's block ends at the scratch column's new contents. -/
theorem out_C3 (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i)
    (x0 x1 : Vec F S128x128x64 .f32) (xs0 : Vec F S128x1 .f32) :
    out0_C_3 c i a2 h2 a3 h3 a4 h4 a5 h5 a6 h6 hc0 hc1 x0 x1 xs0 = k0_pay3 x1 xs0 := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz2, View.readCov_unit_zero (S := S128x1) _ hz2]
  simp only [View.readAt_eq_ld, h3.read_unread, h6.read_unread, View.ld_unit_zero (S := S128x128x64) hz3, View.ld_unit_zero (S := S128x1) hz2]

/-- The first output's block, at a first step, -/
theorem out_A2 (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : cond0_0 i) (hc1 : ¬cond0_1 i)
    (x0 x1 : Vec F S128x128x64 .f32) :
    out0_A_2 c i a2 h2 a3 h3 a4 h4 a5 h5 a6 h6 hc0 hc1 x0 x1 = k0_pay2 x0 x1 := by
  unfold out0_A_2
  rw [View.read_writes_eq_canon _ _ _ (cover0_A_2 c i a2 h2 a3 h3 a4 h4 a5 h5 a6 h6 hc0 hc1 x0 x1)]
  unfold kernelRun0_A
  dsimp only
  rw [View.canon_unit_zero hz2]
  simp only [View.readAt_eq_ld, h2.read_unread, h3.read_unread, View.ld_unit_zero (S := S128x128x64) hz3]

/-- at a middle step, -/
theorem out_B2 (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : ¬cond0_0 i) (hc1 : ¬cond0_1 i)
    (x0 x1 : Vec F S128x128x64 .f32) (xs0 : Vec F S128x1 .f32) :
    out0_B_2 c i a2 h2 a3 h3 a4 h4 a5 h5 a6 h6 hc0 hc1 x0 x1 xs0 = k0_pay2 x0 x1 := by
  unfold out0_B_2
  rw [View.read_writes_eq_canon _ _ _ (cover0_B_2 c i a2 h2 a3 h3 a4 h4 a5 h5 a6 h6 hc0 hc1 x0 x1 xs0)]
  unfold kernelRun0_B
  dsimp only
  rw [View.canon_unit_zero hz2]
  simp only [View.readAt_eq_ld, h2.read_unread, h3.read_unread, View.ld_unit_zero (S := S128x128x64) hz3]

/-- and at a last step. -/
theorem out_C2 (c : Dev nD) (i : grid0.Coords) (a2 : Memref sig .tc .vmem S128x128x64 .f32) (h2 : a2.IsWhole) (a3 : Memref sig .tc .vmem S128x128x64 .f32) (h3 : a3.IsWhole) (a4 : Memref sig .tc .vmem S128x128 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i)
    (x0 x1 : Vec F S128x128x64 .f32) (xs0 : Vec F S128x1 .f32) :
    out0_C_2 c i a2 h2 a3 h3 a4 h4 a5 h5 a6 h6 hc0 hc1 x0 x1 xs0 = k0_pay2 x0 x1 := by
  unfold out0_C_2
  rw [View.read_writes_eq_canon _ _ _ (cover0_C_2 c i a2 h2 a3 h3 a4 h4 a5 h5 a6 h6 hc0 hc1 x0 x1 xs0)]
  unfold kernelRun0_C
  dsimp only
  rw [View.canon_unit_zero hz2]
  simp only [View.readAt_eq_ld, h2.read_unread, h3.read_unread, View.ld_unit_zero (S := S128x128x64) hz3]

end Cert.KernelIdeal.Pieces

end
-- ==== Proof.AtPoint.lean ====
import proofs.«163855_j46995532153317_2_alg».proof.Proof.Gen.KernelIdeal.Frame
import proofs.«163855_j46995532153317_2_alg».proof.Proof.Pieces

/-!
What the three buffers hold after the body at grid point `t` (of the 64 = 4 × 16, the column step moving fastest), in
terms of the point's two input blocks and of what the point before left in the scratch column:

* the first output's staging buffer: `k0_pay2` of the two input blocks, at every point;
* the scratch column: at a first column step (`t % 16 = 0`) `k0_pay3` of the `targ` block and the zero column, at any
  other step `k0_pay3` of the `targ` block and the scratch column after point `t − 1`;
* at a last column step (`t % 16 = 15`) the second output's staging buffer holds what the scratch column then holds.
-/

noncomputable section

open Idealize.ShloMosaic Idealize.ShloMosaic.TcCoe Idealize.SL.Sem

namespace Cert.KernelIdeal.AtPoint

open Cert.KernelIdeal Cert.KernelIdeal.Gen Cert.KernelIdeal.Pieces

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The scratch column after a first column step. -/
theorem scr_first (c : Dev nD) (t : Fin cfg0.N) (h0 : t.val % 16 = 0) :
    (outsAt0 m c t.val t.isLt).2.2 = k0_pay3 (iblk m c 1 t) k0_pay1 := by
  have h1 : ¬t.val % 16 = 15 := by omega
  rw [outsAt0_A m c t h0 h1]
  dsimp only
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- The scratch column after any other step. -/
theorem scr_next (c : Dev nD) (t : Fin cfg0.N) (h0 : ¬t.val % 16 = 0) :
    (outsAt0 m c t.val t.isLt).2.2
      = k0_pay3 (iblk m c 1 t) (outsAt0 m c (t.val - 1) (Nat.lt_of_le_of_lt (Nat.sub_le _ _) t.isLt)).2.2 := by
  by_cases h1 : t.val % 16 = 15
  · rw [outsAt0_C m c t h0 h1]
    dsimp only
    exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2
  · rw [outsAt0_B m c t h0 h1]
    dsimp only
    exact sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.2

/-- At a last column step the second output's buffer holds the scratch column's new contents. -/
theorem out3_last (c : Dev nD) (t : Fin cfg0.N) (h1 : t.val % 16 = 15) :
    (outsAt0 m c t.val t.isLt).2.1 = (outsAt0 m c t.val t.isLt).2.2 := by
  have h0 : ¬t.val % 16 = 0 := by omega
  rw [outsAt0_C m c t h0 h1]
  dsimp only
  exact (out_C3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2).trans
    (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2).symm

/-- The first output's buffer after any step. -/
theorem out2_any (c : Dev nD) (t : Fin cfg0.N) :
    (outsAt0 m c t.val t.isLt).1 = k0_pay2 (iblk m c 0 t) (iblk m c 1 t) := by
  by_cases h0 : t.val % 16 = 0
  · have h1 : ¬t.val % 16 = 15 := by omega
    rw [outsAt0_A m c t h0 h1]
    dsimp only
    exact out_A2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 16 = 15
    · rw [outsAt0_C m c t h0 h1]
      dsimp only
      exact out_C2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2
    · rw [outsAt0_B m c t h0 h1]
      dsimp only
      exact out_B2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2

end Cert.KernelIdeal.AtPoint

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Payload.lean ====
import proofs.«163855_j46995532153317_2_alg».proof.Proof.Gen.KernelIdeal.Skeleton
import proofs.«163855_j46995532153317_2_alg».proof.Proof.Spec
import proofs.«163855_j46995532153317_2_alg».proof.Proof.LibKeepdims
import Idealize.ShloMosaic.Lib.Pipeline.Value
import Idealize.ShloMosaic.PureOps.Ideal.Laws

/-!
The kernel body's three stored values read at an index, on the extended reals.
-/

noncomputable section

namespace Cert.KernelIdeal.Payload

open Cert.KernelIdeal Cert.KernelIdeal.Gen
open Idealize.ShloMosaic Idealize.ShloMosaic.TcCoe Idealize.SL.Sem Idealize.ShloMosaic.ValueIdx

/-- Channel `c` of a `128 × 128 × 64` block, taken as a unit-stride slice `128 × 128 × 1` and viewed as a
    `128 × 128` matrix, reads the block at `(r, q, c)`: the slice shifts the last coordinate by `c`, and dropping a
    trailing unit axis keeps the row-major position `r * 128 + q`. -/
theorem slice_chan {α : Type} (c : ℕ) (hc : c < 64) (x : S128x128x64.Idx → α) (hs : S128x128x64.Slices ![0, 0, c] S128x128x1)
    (hcast : S128x128x1.ShapeCasts S128x128) (r q : Fin 128) :
    shapeCast S128x128 (extractStridedSlice S128x128x1 ![0, 0, c] x hs) hcast (ix2 r q) = x (ix3 r q (⟨c, hc⟩ : Fin 64)) :=
  (shapeCast_apply _ hcast (ix2 r q) (ix3 r q (0 : Fin 1)) (by
    rw [Shape.rowMajor_val_three, Shape.rowMajor_val_two]
    show (r.val * 128 + q.val) * 1 + 0 = r.val * 128 + q.val
    omega)).trans
  (extractStridedSlice_apply _ x hs (ix3 r q (0 : Fin 1)) (ix3 r q (⟨c, hc⟩ : Fin 64)) (fun a => by
    match a with
    | ⟨0, _⟩ => show r.val = 0 + r.val; omega
    | ⟨1, _⟩ => show q.val = 0 + q.val; omega
    | ⟨2, _⟩ => show c = c + 0; omega))

/-- The bit of "`a` differs from zero", widened to 32 bits and converted to a float as a signed integer, is `nz a`:
    on extended reals the ordered and the unordered "not equal" are the same test, and a one-bit word widened with
    zeros reads the same signed and unsigned. -/
theorem bit_to_float (a : EReal) :
    FloatOps.sitofp (F := Ideal) .f32 ((FloatOps.cmpf (F := Ideal) (φ := .f32) .one a (Ideal.ofBits .f32 0x00000000#32)).setWidth 32)
      = Cert.Spec.nz a := by
  show (((((Ideal.cmp .one a (Ideal.ofBits .f32 0x00000000#32)).setWidth 32).toInt : ℝ)) : EReal) = _
  rw [Cert.Spec.toInt_setWidth_bit]
  rfl

/-- The reset value of the scratch column is zero. -/
theorem pay1_apply (r : Fin 128) (u : Fin 1) : k0_pay1 (F := Ideal) (ix2 r u) = 0 := by
  unfold k0_pay1
  -- a cast to the same shape is the identity; what is left is the broadcast zero word read at an index
  refine (congrFun (shapeCast_self _ _) _).trans ?_
  exact Ideal.ofBits_zero_f32

/-- The first output's block: the squared difference of the two input blocks' channel 0. -/
theorem pay2_apply (x0 x1 : Vec Ideal S128x128x64 .f32) (r q : Fin 128) :
    k0_pay2 (F := Ideal) x0 x1 (ix2 r q)
      = (x0 (ix3 r q (0 : Fin 64)) - x1 (ix3 r q (0 : Fin 64))) * (x0 (ix3 r q (0 : Fin 64)) - x1 (ix3 r q (0 : Fin 64))) := by
  unfold k0_pay2
  -- both operands are channel 0 of their block; subtraction and multiplication act entry by entry
  have e0 := slice_chan 0 (by omega) x0 slices_S128x128x64_o0_0_0_S128x128x1 shapeCasts_S128x128x1_S128x128 r q
  have e1 := slice_chan 0 (by omega) x1 slices_S128x128x64_o0_0_0_S128x128x1 shapeCasts_S128x128x1_S128x128 r q
  exact congrArg₂ (fun a b => (a - b) * (a - b)) e0 e1

/-- The scratch column after a step: what it held plus the number of nonzero channel-1 entries in the block's row. -/
theorem pay3_apply (x1 : Vec Ideal S128x128x64 .f32) (acc : Vec Ideal S128x1 .f32) (r : Fin 128) (u : Fin 1) :
    k0_pay3 (F := Ideal) x1 acc (ix2 r u) = acc (ix2 r u) + ∑ q : Fin 128, Cert.Spec.nz (x1 (ix3 r q (1 : Fin 64))) := by
  unfold k0_pay3
  -- the outer cast is the identity and the addition acts entry by entry
  refine (congrFun (shapeCast_self _ _) _).trans ?_
  refine congrArg (fun z => acc (ix2 r u) + z) ?_
  -- the row sums kept as a column: entry `(r, u)` is the sum of row `r` over the 128 columns
  refine (Cert.Keepdims.shapeCast_a_a1_apply _ shapeCasts_S128_S128x1 r u).trans ?_
  refine (Cert.Keepdims.sum_axis1_apply _ 0x00000000#32 reduces_S128x128_S128 (.inl rfl) rfl r).trans ?_
  -- each summand is the comparison's bit of channel 1 at `(r, q)`, as a float
  refine Finset.sum_congr rfl fun q _ => ?_
  refine Eq.trans ?_ (bit_to_float (x1 (ix3 r q (1 : Fin 64))))
  have e := slice_chan 1 (by omega) x1 slices_S128x128x64_o0_0_1_S128x128x1 shapeCasts_S128x128x1_S128x128 r q
  exact congrArg (fun a => FloatOps.sitofp (F := Ideal) .f32 ((FloatOps.cmpf (F := Ideal) (φ := .f32) .one a (Ideal.ofBits .f32 0x00000000#32)).setWidth 32)) e

end Cert.KernelIdeal.Payload

end
-- ==== Proof.Accum.lean ====
import proofs.«163855_j46995532153317_2_alg».proof.Proof.Gen.KernelIdeal.Frame
import proofs.«163855_j46995532153317_2_alg».proof.Proof.AtPoint
import proofs.«163855_j46995532153317_2_alg».proof.Proof.Payload
import proofs.«163855_j46995532153317_2_alg».proof.Proof.Spec
import Idealize.ShloMosaic.Lib.Pipeline.Value

/-!
The kernel's region, read on the extended reals: after the run its first result array holds the squared differences
`Cert.Spec.lossArr pred targ` and its second the counts `Cert.Spec.countCol targ`.

Grid point `t` (of 64) works on row block `t / 16` and column block `t % 16`: rows `128·(t/16) + r`, columns
`128·(t%16) + q`. The scratch column after point `t` holds, in row `r`, the number of nonzero channel-1 entries among
the first `128·(t%16) + 128` columns of row `128·(t/16) + r` — by induction on `t`: a first column step starts from
zero, any other step adds its 128 columns to what the step before left, and a sum over a range split in two is the sum
of the two parts. At a last column step the range is the whole row, and that is what the step writes back.
-/

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.AtPoint Cert.KernelIdeal.Payload

variable (m : (ℓ : Loc nD τ sig) → Buf (Elt Ideal) ℓ)

/-- `pred` as the region finds it. -/
abbrev Pm (c : Dev nD) : Cert.Spec.A3.Idx → EReal := V m c main_arg0
/-- `targ` as the region finds it. -/
abbrev Tm (c : Dev nD) : Cert.Spec.A3.Idx → EReal := V m c main_arg1

/-- Where point `t`'s blocks sit: row block `t / 16`, column block `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

theorem row_lt (t : Fin cfg0.N) (r : Fin 128) : 128 * (t.val / 16) + r.val < 512 := by
  have := lt64 t; have := r.isLt; omega

theorem col_lt (t : Fin cfg0.N) (q : Fin 128) : 128 * (t.val % 16) + q.val < 2048 := by
  have := q.isLt; omega

/-- An entry of point `t`'s `pred` block is the entry of `pred` in the block's row and column. -/
theorem blk0_read (c : Dev nD) (t : Fin cfg0.N) (r q : Fin 128) (ch : Fin 64) :
    (iblk m c 0 t : Vec Ideal S128x128x64 .f32) (ix3 r q ch)
      = Pm m c (ix3 (⟨128 * (t.val / 16) + r.val, row_lt t r⟩ : Fin 512) (⟨128 * (t.val % 16) + q.val, col_lt t q⟩ : Fin 2048) ch) := by
  obtain ⟨e0, e1, e2, -⟩ := idx_facts t
  unfold iblk
  show V m c main_arg0 (((cfg0.win 0).blk t).view.emb (ix3 r q ch)) = _
  refine congrArg (V m c main_arg0) (funext fun a => Fin.ext ?_)
  match a with
  | ⟨0, _⟩ => show win0_0.index t (0 : Fin 3) * 128 + 1 * r.val = 128 * (t.val / 16) + r.val; omega
  | ⟨1, _⟩ => show win0_0.index t (1 : Fin 3) * 128 + 1 * q.val = 128 * (t.val % 16) + q.val; omega
  | ⟨2, _⟩ => show win0_0.index t (2 : Fin 3) * 64 + 1 * ch.val = ch.val; omega

/-- The same for the `targ` block. -/
theorem blk1_read (c : Dev nD) (t : Fin cfg0.N) (r q : Fin 128) (ch : Fin 64) :
    (iblk m c 1 t : Vec Ideal S128x128x64 .f32) (ix3 r q ch)
      = Tm m c (ix3 (⟨128 * (t.val / 16) + r.val, row_lt t r⟩ : Fin 512) (⟨128 * (t.val % 16) + q.val, col_lt t q⟩ : Fin 2048) ch) := by
  obtain ⟨-, -, -, e0, e1, e2, -⟩ := idx_facts t
  unfold iblk
  show V m c main_arg1 (((cfg0.win 1).blk t).view.emb (ix3 r q ch)) = _
  refine congrArg (V m c main_arg1) (funext fun a => Fin.ext ?_)
  match a with
  | ⟨0, _⟩ => show win0_1.index t (0 : Fin 3) * 128 + 1 * r.val = 128 * (t.val / 16) + r.val; omega
  | ⟨1, _⟩ => show win0_1.index t (1 : Fin 3) * 128 + 1 * q.val = 128 * (t.val % 16) + q.val; omega
  | ⟨2, _⟩ => show win0_1.index t (2 : Fin 3) * 64 + 1 * ch.val = ch.val; omega

/-- The number of nonzero channel-1 entries in row `r` of point `t`'s `targ` block: 128 consecutive columns of the row. -/
theorem block_count (c : Dev nD) (t : Fin cfg0.N) (r : Fin 128) :
    ∑ q : Fin 128, Cert.Spec.nz ((iblk m c 1 t : Vec Ideal S128x128x64 .f32) (ix3 r q (1 : Fin 64)))
      = ∑ q ∈ Finset.range 128, Cert.Spec.nzAt (Tm m c) (128 * (t.val / 16) + r.val) (128 * (t.val % 16) + q) := by
  rw [← Fin.sum_univ_eq_sum_range (fun q => Cert.Spec.nzAt (Tm m c) (128 * (t.val / 16) + r.val) (128 * (t.val % 16) + q)) 128]
  refine Finset.sum_congr rfl fun q _ => ?_
  rw [blk1_read m c t r q 1]
  exact (Cert.Spec.nzAt_of_lt (Tm m c) ⟨_, row_lt t r⟩ ⟨_, col_lt t q⟩).symm

/-- THE SCRATCH COLUMN after point `n`: the count over the columns seen so far in the row block. -/
theorem acc_eq (c : Dev nD) : ∀ (n : ℕ) (hn : n < cfg0.N) (r : Fin 128) (u : Fin 1),
    (outsAt0 m c n hn).2.2 (ix2 r u) = Cert.Spec.countUpTo (Tm m c) (128 * (n / 16) + r.val) (128 * (n % 16) + 128) := by
  intro n
  induction n using Nat.strong_induction_on with
  | _ n ih =>
    intro hn r u
    have hN : n < 64 := lt_of_lt_of_eq hn (show cfg0.N = 64 from N_0)
    by_cases h0 : n % 16 = 0
    · refine (congrFun (scr_first m c ⟨n, hn⟩ h0) (ix2 r u)).trans ?_
      refine (pay3_apply (iblk m c 1 ⟨n, hn⟩) (k0_pay1 (F := Ideal)) r u).trans ?_
      rw [pay1_apply r u, zero_add, block_count m c ⟨n, hn⟩ r]
      show _ = Cert.Spec.countUpTo (Tm m c) (128 * (n / 16) + r.val) (128 * (n % 16) + 128)
      rw [h0]
      unfold Cert.Spec.countUpTo
      simp only [Nat.mul_zero, Nat.zero_add]
    · refine (congrFun (scr_next m c ⟨n, hn⟩ h0) (ix2 r u)).trans ?_
      refine (pay3_apply (iblk m c 1 ⟨n, hn⟩) _ r u).trans ?_
      rw [block_count m c ⟨n, hn⟩ r]
      show (outsAt0 m c (n - 1) _).2.2 (ix2 r u) + _ = _
      rw [ih (n - 1) (by omega) _ r u]
      have e1 : (n - 1) / 16 = n / 16 := by omega
      have e2 : 128 * ((n - 1) % 16) + 128 = 128 * (n % 16) := by omega
      rw [e1, e2]
      exact (Cert.Spec.countUpTo_add (Tm m c) (128 * (n / 16) + r.val) (128 * (n % 16))).symm

/-! ## The second result array: the counts -/

theorem mem_blk3 (t : Fin cfg0.N) (i : S512x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v0_1).slice (win0_3.rect t)).set ↔ _
  rw [View.set_slice_whole, Rect.mem_set_unit]
  exact Iff.rfl

/-- What a last column step writes back is its block of the counts. -/
theorem flushed3_eq (c : Dev nD) (t : Fin cfg0.N) (hf : (cfg0.win 3).flush t = true) :
    (dats m 0 c).flushed 3 t = ((cfg0.win 3).blk t).view.read (Elt Ideal) (Cert.Spec.countCol (Tm m c)) := by
  have h15 : t.val % 16 = 15 := (flush0_3 t).mp hf
  obtain ⟨-, -, -, -, -, -, -, -, e0, e1⟩ := idx_facts t
  show (cfg0.win 3).cut (grid0.coords t) ((dats m 0 c).after 3 t) = _
  rw [after0_3, out3_last m c t h15]
  funext (j : S128x1.Idx)
  obtain ⟨r, u, rfl⟩ : ∃ (r : Fin 128) (u : Fin 1), j = ix2 r u := ⟨j 0, j 1, eq_ix2 j⟩
  show (outsAt0 m c t.val t.isLt).2.2 (ix2 r u) = Cert.Spec.countCol (Tm m c) (((cfg0.win 3).blk t).view.emb (ix2 r u))
  rw [acc_eq m c t.val t.isLt r u, h15]
  unfold Cert.Spec.countCol Cert.Spec.count
  have hrow : ((((cfg0.win 3).blk t).view.emb (ix2 r u)) 0).val = 128 * (t.val / 16) + r.val := by
    show win0_3.index t (0 : Fin 2) * 128 + 1 * r.val = _
    omega
  rw [hrow]

/-- Every row of the count column is written back by the last column step of its row block. -/
theorem cover3 (i : S512x1.Idx) : ∃ t : Fin cfg0.N, (cfg0.win 3).flush t = true ∧ i ∈ ((cfg0.win 3).blk t).view.set := by
  have hi0 : (i 0).val < 512 := (i 0).isLt
  have hi1 : (i 1).val < 1 := (i 1).isLt
  have hN : cfg0.N = 64 := N_0
  let t : Fin cfg0.N := ⟨16 * ((i 0).val / 128) + 15, by omega⟩
  have ht : t.val = 16 * ((i 0).val / 128) + 15 := rfl
  obtain ⟨-, -, -, -, -, -, -, -, e0, e1⟩ := idx_facts t
  refine ⟨t, (flush0_3 t).mpr (by omega), ?_⟩
  rw [mem_blk3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1 ≤ (i 1).val ∧ (i 1).val < win0_3.index t (1 : Fin 2) * 1 + 1; omega

/-- The second result array ends at the counts. -/
theorem final3 (c : Dev nD) : (dats m 0 c).arrAt 3 cfg0.N = Cert.Spec.countCol (Tm m c) :=
  (dats m 0 c).arrAt_eq_of_cover 3 (Cert.Spec.countCol (Tm m c)) (fun t hf => flushed3_eq m c t hf) cover3

/-! ## The first result array: the squared differences -/

theorem mem_blk2 (t : Fin cfg0.N) (i : S512x2048.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0_0).slice (win0_2.rect t)).set ↔ _
  rw [View.set_slice_whole, Rect.mem_set_unit]
  exact Iff.rfl

/-- What point `t` writes back is its block of the squared differences. -/
theorem flushed2_eq (c : Dev nD) (t : Fin cfg0.N) :
    (dats m 0 c).flushed 2 t = ((cfg0.win 2).blk t).view.read (Elt Ideal) (Cert.Spec.lossArr (Pm m c) (Tm m c)) := by
  obtain ⟨-, -, -, -, -, -, e0, e1, -⟩ := idx_facts t
  show (cfg0.win 2).cut (grid0.coords t) ((dats m 0 c).after 2 t) = _
  rw [after0_2, out2_any m c t]
  funext (j : S128x128.Idx)
  obtain ⟨r, q, rfl⟩ : ∃ (r q : Fin 128), j = ix2 r q := ⟨j 0, j 1, eq_ix2 j⟩
  show k0_pay2 (F := Ideal) (iblk m c 0 t) (iblk m c 1 t) (ix2 r q) = Cert.Spec.lossArr (Pm m c) (Tm m c) (((cfg0.win 2).blk t).view.emb (ix2 r q))
  refine (pay2_apply (iblk m c 0 t) (iblk m c 1 t) r q).trans ?_
  rw [blk0_read m c t r q 0, blk1_read m c t r q 0]
  unfold Cert.Spec.lossArr
  have hrow : ((((cfg0.win 2).blk t).view.emb (ix2 r q)) 0).val = 128 * (t.val / 16) + r.val := by
    show win0_2.index t (0 : Fin 2) * 128 + 1 * r.val = _
    omega
  have hcol : ((((cfg0.win 2).blk t).view.emb (ix2 r q)) 1).val = 128 * (t.val % 16) + q.val := by
    show win0_2.index t (1 : Fin 2) * 128 + 1 * q.val = _
    omega
  rw [hrow, hcol]
  exact (Cert.Spec.sqAt_of_lt (Pm m c) (Tm m c) ⟨_, row_lt t r⟩ ⟨_, col_lt t q⟩).symm

/-- Every entry of the array is in the block of the point of its row block and column block. -/
theorem cover2 (i : S512x2048.Idx) : ∃ t : Fin cfg0.N, (cfg0.win 2).flush t = true ∧ i ∈ ((cfg0.win 2).blk t).view.set := by
  have hi0 : (i 0).val < 512 := (i 0).isLt
  have hi1 : (i 1).val < 2048 := (i 1).isLt
  have hN : cfg0.N = 64 := N_0
  let t : Fin cfg0.N := ⟨16 * ((i 0).val / 128) + (i 1).val / 128, by omega⟩
  have ht : t.val = 16 * ((i 0).val / 128) + (i 1).val / 128 := rfl
  obtain ⟨-, -, -, -, -, -, e0, e1, -⟩ := idx_facts t
  refine ⟨t, flush0_2 t, ?_⟩
  rw [mem_blk2]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The first result array ends at the squared differences. -/
theorem final2 (c : Dev nD) : (dats m 0 c).arrAt 2 cfg0.N = Cert.Spec.lossArr (Pm m c) (Tm m c) :=
  (dats m 0 c).arrAt_eq_of_cover 2 (Cert.Spec.lossArr (Pm m c) (Tm m c)) (fun t _ => flushed2_eq m c t) cover2

end Cert.KernelIdeal.Accum

end
-- ==== Proof.KTail.lean ====
import proofs.«163855_j46995532153317_2_alg».proof.Proof.Gen.KernelIdeal.Frame
import proofs.«163855_j46995532153317_2_alg».proof.Proof.TailDef
import Idealize.ShloMosaic.Lib.StableHlo.Run

/-!
The kernel program's host lines after its region compute the shared function `tail` of the region's two result
arrays (the count column read as a vector, and the squared differences).
-/

noncomputable section

namespace Cert.KernelIdeal.KTail

open Cert.KernelIdeal Cert.KernelIdeal.Gen
open Idealize.ShloMosaic Idealize.ShloMosaic.TcCoe Idealize.SL.Sem Idealize.ShloMosaic.StableHlo

variable {F : FTy → Type} [FloatOps F]

set_option maxHeartbeats 2000000 in
/-- From any contents `W` of the core's buffers, the 49 host operations after the region leave the result buffer at
    `tail` of `W`'s count column (cast to a vector) and `W`'s squared-difference array. -/
theorem tail_read (W : Valuation τ sig (Elt F)) :
    StableHlo.after (List.flatten [hostOps1, hostOps1_1, hostOps1_2]) W (Proc.devRef .tc main_v20)
      = Cert.ReferenceIdeal.RefValue.tail (F := F)
          (shapeCast S512 (W (Proc.devRef .tc main_v0_1)) shapeCasts_S512x1_S512) (W (Proc.devRef .tc main_v0_0)) := by
  -- The three stretches as one literal list of operations.
  simp only [hostOps1, hostOps1_1, hostOps1_2, List.flatten_cons, List.flatten_nil, List.append_nil, List.cons_append,
    List.nil_append]
  -- Each operation's result at its own buffer is its function of its operands' contents; every other buffer keeps
  -- what it held. What is left is the composed term over `W` at the two arrays.
  after_results_simp
  -- That composed term is `tail` of the two arrays, term for term: the same operations on the same constants.
  rfl

/-- The frame run's name for the result buffer after the host lines is `tail` of the two arrays the region leaves. -/
theorem afterTail_eq (m : (ℓ : Loc nD τ sig) → Buf (Elt F) ℓ) (c : Dev nD) :
    Pipeline.afterTail₀ cfgs (dats m) 0 (V0 m) [hostOps1, hostOps1_1, hostOps1_2] c main_v20
      = Cert.ReferenceIdeal.RefValue.tail (F := F)
          (shapeCast S512 ((dats m 0 c).arrAt 3 cfg0.N) shapeCasts_S512x1_S512) ((dats m 0 c).arrAt 2 cfg0.N) := by
  unfold Pipeline.afterTail₀
  rw [tail_read]
  -- The contents the host lines start from hold, at each array of the region, what the region leaves there.
  have e3 : Pipeline.withArrays (τ := τ) spec0 c (V0 m c) (fun w => (dats m 0 c).arrAt w cfg0.N) (Proc.devRef .tc main_v0_1)
      = (dats m 0 c).arrAt 3 cfg0.N :=
    Pipeline.withArrays_arr spec0 launch0.win.arr_inj c _ _ 3
  have e2 : Pipeline.withArrays (τ := τ) spec0 c (V0 m c) (fun w => (dats m 0 c).arrAt w cfg0.N) (Proc.devRef .tc main_v0_0)
      = (dats m 0 c).arrAt 2 cfg0.N :=
    Pipeline.withArrays_arr spec0 launch0.win.arr_inj c _ _ 2
  exact congrArg₂
    (fun a b => Cert.ReferenceIdeal.RefValue.tail (F := F) (shapeCast S512 a shapeCasts_S512x1_S512) b) e3 e2

end Cert.KernelIdeal.KTail

end
-- ==== Proof.KRun.lean ====
import proofs.«163855_j46995532153317_2_alg».proof.Proof.Accum
import proofs.«163855_j46995532153317_2_alg».proof.Proof.KTail

/-!
The idealized kernel program's run, read: its result is `tail` of the counts (as a vector) and the squared
differences of its two arguments, and the arguments end unchanged.
-/

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Accum

variable (m : (ℓ : Loc nD τ sig) → Buf (Elt Ideal) ℓ) (ρ : Dev nD → PrngReg)

/-- The count column read as a vector is the count vector: entry `b` of the vector is entry `(b, 0)` of the column. -/
theorem countCol_cast (T : Cert.Spec.A3.Idx → EReal) :
    shapeCast S512 (Cert.Spec.countCol T) shapeCasts_S512x1_S512 = Cert.Spec.countVec T := by
  funext i
  refine (shapeCast_apply (Cert.Spec.countCol T) shapeCasts_S512x1_S512 i (ix2 (i 0) (0 : Fin 1)) ?_).trans rfl
  rw [Shape.rowMajor_val_two, Shape.rowMajor_val_one]
  show (i 0).val * 1 + 0 = (i 0).val
  omega

/-- The result buffer is no array of the pipeline and is not scoped: the frame run names it through the host lines. -/
theorem result_rest : main_v20 ∈ Pipeline.restRefs sig spec0 :=
  Pipeline.mem_restRefs_of main_v20 rfl (by decide)

/-- Every weakly fair execution of the idealized kernel program terminates with the result at `tail` of the counts
    and the squared differences of the arguments, and the arguments unchanged. -/
theorem run : θ_run defs (onTc (τ := τ) (main (F := Ideal))) ⟨m, fun _ => 0, ρ⟩ fun r => ∀ c : Dev nD,
      r.2.mem ((c.tc : Thread nD τ).loc main_v20)
        = Cert.ReferenceIdeal.RefValue.tail (F := Ideal)
            (Cert.Spec.countVec (m ((c.tc : Thread nD τ).loc main_arg1)))
            (Cert.Spec.lossArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v20 result_rest).trans
          ((Cert.KernelIdeal.KTail.afterTail_eq m c).trans (by
            rw [final3 m c, final2 m c, countCol_cast]
            rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KRun

end
-- ==== Proof.lean ====
/-
  The certificate of a masked-horizon weighted loss: from `pred`, `targ` (each `512 × 2048 × 64`) both programs compute,
  per row `b`, the number `t b` of entries `targ[b, h, 1]` that differ from zero and the squared differences
  `L b h = (pred[b, h, 0] − targ[b, h, 0])²`, and return the same function `tail t L` of the two (a weight
  `1 + 0.7 · (t / 2047) ^ 2.5`, the entry of `L` in column `⌊t⌋ − 1` of each row, their product times 64, the mean over
  the rows). The reference does this with whole-array operations. The kernel computes `L` block by block over a
  `4 × 16` grid of `128 × 128` blocks and, for each of the four row blocks, adds the 16 column blocks' per-row counts
  into a scratch column that it writes out at the row block's last step; the host lines after the region then apply
  `tail`.

  On the extended reals the two agree because a count over 2048 columns taken in 16 runs of 128 is the same sum —
  addition is associative and commutative, so no finiteness is needed and the precondition is never opened — and
  because the comparison `≠ 0` has no unordered case there, so the kernel's ordered comparison widened and converted
  as a signed integer and the reference's unordered comparison converted as an unsigned bit are both the number 0 or 1.
  `tail` is never unfolded: both programs hand it equal arguments.

  * the three frames: the generated frame proofs of the two kernel programs, and the reference's run with the result
    dropped;
  * `preserves`: the idealization rewrote nothing, so the statement is `True`;
  * `algebraic`: the kernel program's run read back (`KRun.run`) beside the reference's run, its two stages identified
    with the same counts and squared differences (`RefStages`).
-/
import proofs.«163855_j46995532153317_2_alg».proof.Defs
import proofs.«163855_j46995532153317_2_alg».proof.Proof.Gen.Kernel
import proofs.«163855_j46995532153317_2_alg».proof.Proof.Gen.Kernel.Skeleton
import proofs.«163855_j46995532153317_2_alg».proof.Proof.Gen.Kernel.Launch
import proofs.«163855_j46995532153317_2_alg».proof.Proof.Gen.Kernel.Points
import proofs.«163855_j46995532153317_2_alg».proof.Proof.Gen.Kernel.Frame
import proofs.«163855_j46995532153317_2_alg».proof.Proof.Gen.KernelIdeal
import proofs.«163855_j46995532153317_2_alg».proof.Proof.Gen.KernelIdeal.Skeleton
import proofs.«163855_j46995532153317_2_alg».proof.Proof.Gen.KernelIdeal.Launch
import proofs.«163855_j46995532153317_2_alg».proof.Proof.Gen.KernelIdeal.Points
import proofs.«163855_j46995532153317_2_alg».proof.Proof.Gen.KernelIdeal.Frame
import proofs.«163855_j46995532153317_2_alg».proof.Proof.Gen.ReferenceIdeal
import proofs.«163855_j46995532153317_2_alg».proof.Proof.Gen.Pre_finite_inputs
import proofs.«163855_j46995532153317_2_alg».proof.Proof.RefRun
import proofs.«163855_j46995532153317_2_alg».proof.Proof.RefRead
import proofs.«163855_j46995532153317_2_alg».proof.Proof.TailDef
import proofs.«163855_j46995532153317_2_alg».proof.Proof.RefStages
import proofs.«163855_j46995532153317_2_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at `tail` of the counts and the squared differences of arguments that agree. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.RefValue.val_main_v30_eq_tail,
    Cert.ReferenceIdeal.RefStages.count_stage, Cert.ReferenceIdeal.RefStages.loss_stage, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
